-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S64x1024 : Shape := ⟨2, ![64, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S64x1024 : S_.BroadcastsInDim S64x1024 (![] : Fin 0 → Fin S64x1024.rank)
  reducesTo_S64x1024_S_d0_1 : S64x1024.ReducesTo [0, 1] S_

variable [Facts]

def fn {F : FTy → Type} [FloatOps F] (main_arg0 : FVec F S2048x1024 .f32) (main_arg1 : FVec F S64x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  main_v8
-- ==== Kernel.lean ====
abbrev S2048x1024 : Shape := ⟨2, ![2048, 1024]⟩
abbrev S64x1024 : Shape := ⟨2, ![64, 1024]⟩
abbrev S2048x64x1024 : Shape := ⟨3, ![2048, 64, 1024]⟩
abbrev S32x1024 : Shape := ⟨2, ![32, 1024]⟩
abbrev S32x64x1024 : Shape := ⟨3, ![32, 64, 1024]⟩
abbrev S1x64x1024 : Shape := ⟨3, ![1, 64, 1024]⟩
abbrev S32x1x1024 : Shape := ⟨3, ![32, 1, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S64x1024, .f32⟩
  | .hbm, ⟨2, _⟩ => ⟨S2048x64x1024, .f32⟩
  | .local _ .vmem, ⟨0, _⟩ => ⟨S32x1024, .f32⟩
  | .local _ .vmem, ⟨1, _⟩ => ⟨S32x1024, .f32⟩
  | .local _ .vmem, ⟨2, _⟩ => ⟨S64x1024, .f32⟩
  | .local _ .vmem, ⟨3, _⟩ => ⟨S32x64x1024, .f32⟩
  | .local _ .vmem, ⟨4, _⟩ => ⟨S32x64x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S64x1024_S64x1024_0_0 : ∀ a, (![0, 0] : Fin 2 → Nat) a + S64x1024.size a ≤ S64x1024.size a
  h_S64x1024 : 0 < S64x1024.numel
  shapeCasts_S64x1024_S1x64x1024 : S64x1024.ShapeCasts S1x64x1024
  shapeCasts_S1x64x1024_S1x64x1024 : S1x64x1024.ShapeCasts S1x64x1024
  broadcasts_S1x64x1024_S32x64x1024 : S1x64x1024.Broadcasts S32x64x1024
  inb_S32x1024_S32x1024_0_0 : ∀ a, (![0, 0] : Fin 2 → Nat) a + S32x1024.size a ≤ S32x1024.size a
  h_S32x1024 : 0 < S32x1024.numel
  shapeCasts_S32x1024_S32x1x1024 : S32x1024.ShapeCasts S32x1x1024
  shapeCasts_S32x1x1024_S32x1x1024 : S32x1x1024.ShapeCasts S32x1x1024
  broadcasts_S32x1x1024_S32x64x1024 : S32x1x1024.Broadcasts S32x64x1024
  iota_S32x64x1024_d1_w32 : S32x64x1024.Iotas .tc 32 [1]
  inb_S32x64x1024_S32x64x1024_0_0_0 : ∀ a, (![0, 0, 0] : Fin 3 → Nat) a + S32x64x1024.size a ≤ S32x64x1024.size a
  h_S32x64x1024 : 0 < S32x64x1024.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1024.size a ≤ S2048x1024.size a
  hwx0_0 : ∀ i : grid0.Coords, EltTy.bits .f32 = 32 ∨ (Rect.block (s := S2048x1024) S32x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S64x1024.size a
  hwx0_1 : ∀ i : grid0.Coords, EltTy.bits .f32 = 32 ∨ (Rect.block (s := S64x1024) S64x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x64x1024.size a ≤ S2048x64x1024.size a
  hwx0_2 : ∀ i : grid0.Coords, EltTy.bits .f32 = 32 ∨ (Rect.block (s := S2048x64x1024) S32x64x1024.size (cc0_transform_2 i) (hinb0_2 i)).WholeWords (EltTy.packing .f32)

variable [Facts₀]

abbrev win0_0 : Pipeline.Window sig grid0 :=
  Pipeline.Window.ofSpec (Memref.whole main_arg0) S32x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x64x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x1024 : Shape := ⟨2, ![2048, 1024]⟩
abbrev S64x1024 : Shape := ⟨2, ![64, 1024]⟩
abbrev S63x1024 : Shape := ⟨2, ![63, 1024]⟩
abbrev S1x63x1024 : Shape := ⟨3, ![1, 63, 1024]⟩
abbrev S2048x63x1024 : Shape := ⟨3, ![2048, 63, 1024]⟩
abbrev S2048x1x1024 : Shape := ⟨3, ![2048, 1, 1024]⟩
abbrev S2048x64x1024 : Shape := ⟨3, ![2048, 64, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S64x1024, .f32⟩
  | .hbm, ⟨2, _⟩ => ⟨S63x1024, .f32⟩
  | .hbm, ⟨3, _⟩ => ⟨S1x63x1024, .f32⟩
  | .hbm, ⟨4, _⟩ => ⟨S63x1024, .f32⟩
  | .hbm, ⟨5, _⟩ => ⟨S2048x63x1024, .f32⟩
  | .hbm, ⟨6, _⟩ => ⟨S2048x1x1024, .f32⟩
  | .hbm, ⟨7, _⟩ => ⟨S2048x64x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]

class Facts₀ : Prop where
  slices_S64x1024_S63x1024_1_0 : S64x1024.Slices ![1, 0] S63x1024
  bcast_S63x1024_S1x63x1024_1_2 : S63x1024.BroadcastsInDim S1x63x1024 (![1, 2] : Fin 2 → Fin S1x63x1024.rank)
  bcast_S1x63x1024_S2048x63x1024_0_1_2 : S1x63x1024.BroadcastsInDim S2048x63x1024 (![0, 1, 2] : Fin 3 → Fin S2048x63x1024.rank)
  bcast_S2048x1024_S2048x1x1024_0_2 : S2048x1024.BroadcastsInDim S2048x1x1024 (![0, 2] : Fin 2 → Fin S2048x1x1024.rank)
  concatenates_S2048x1x1024_S2048x63x1024_S2048x64x1024_d1 : Shape.Concatenates [S2048x1x1024, S2048x63x1024] S2048x64x1024 1

variable [Facts₀]

class Facts : Prop extends Facts₀ where

variable [Facts]
-- ==== Proof.LibCoordSelect.lean ====
/-
  A select on "this coordinate is 0".

  A vector unit marks one position along an axis by comparing an iota along that axis with a splat of 0 and selecting
  on the resulting one-bit mask. Read at an index, that is an `if` on the index's coordinate: the iota holds the
  coordinate as a 32-bit word, and a coordinate below 2³² is zero exactly when its word is the zero word. (The
  library's `ValueIdx.select_eq0` is the case of a coordinate below 2.) Stated for entries of any type, any shape, any
  axis, and either kind of core.
-/
import Idealize.ShloMosaic.Lib.ValueIdx
import Idealize.ShloMosaic.Lib.Pipeline.Value
import Idealize.ShloMosaic.Lib.Affine

noncomputable section

namespace Cert.Lib.CoordSelect

open Idealize.ShloMosaic

variable {α : Type}

/-- A select whose one-bit condition compares a coordinate (as a 32-bit word) with the zero word chooses by
    "the coordinate is 0": a coordinate below 2³² is zero exactly when its word is. -/
theorem select_coord_zero (n : Nat) (hn : n < 4294967296) (A B : α) :
    Scalar.select (IntOp.cmpi .eq (BitVec.ofNat 32 n) 0#32) A B = if n = 0 then A else B := by
  unfold Scalar.select
  by_cases h : n = 0
  · subst h
    rw [if_pos rfl]
    exact if_pos (IntOp.cmpi_eq.mpr rfl)
  · rw [if_neg h, if_neg]
    intro hc
    have h2 : (BitVec.ofNat 32 n).toNat = (0#32 : BitVec 32).toNat := congrArg BitVec.toNat (IntOp.cmpi_eq.mp hc)
    rw [BitVec.toNat_ofNat, Nat.mod_eq_of_lt (by omega)] at h2
    exact h h2

/-- The vector form: a select on the mask "the iota along axis `d` equals 0", read at an index `i`, takes the first
    operand where `i`'s coordinate on `d` is 0 and the second elsewhere. -/
theorem select_iota_eq_zero_apply (κ : Kind) (s : Shape) (d : Fin s.rank) (h : s.Iotas κ 32 [d])
    (a b : s.Idx → α) (i : s.Idx) (hi : (i d).val < 4294967296) :
    select (cmpi .eq (iota κ s 32 [d] h) (broadcast s (0#32 : BitVec 32))) a b i
      = if (i d).val = 0 then a i else b i := by
  show Scalar.select (IntOp.cmpi .eq (iota κ s 32 [d] h i) (0#32 : BitVec 32)) (a i) (b i) = _
  rw [iota_single_apply]
  exact select_coord_zero _ hi _ _

end Cert.Lib.CoordSelect

end
-- ==== Proof.WindowSpec.lean ====
/-
  The sliding window's slots, as one function of the two argument arrays.

  At step `t` the window holds `L = 64` rows of `D = 1024` features: slot 0 is the step's own input row
  `x[t, ·]`, and every later slot `l ≥ 1` is row `l` of the initial buffer, the same at every step. So
      window x buf [t, l, d]  =  x[t, d]      if l = 0
                                 buf[l, d]     otherwise.
  Nothing is computed on the entries: the result only re-lays them, so everything here holds for entries of any type.

  One reading of it is proved here, over plain arrays and with no program in sight: a tile of 32 consecutive steps
  built the way a vector unit builds it — both operands broadcast to the tile's shape [32, 64, 1024] and merged by a
  select on "the slot number is 0" (LibCoordSelect.lean reads that select as an `if`) — read at an index.
-/
import Idealize.ShloMosaic.Lib.ValueIdx
import Idealize.ShloMosaic.Lib.Pipeline.Value
import proofs.«160480_j72627896975940_2_alg».proof.Proof.LibCoordSelect

noncomputable section

namespace Cert.SlidingWindow

open Idealize.ShloMosaic Idealize.ShloMosaic.ValueIdx Cert.Lib.CoordSelect

variable {α : Type}

/-- Slot `l` of step `t`: the step's input row in slot 0, row `l` of the initial buffer in every other slot. -/
def window (x : (⟨2, ![2048, 1024]⟩ : Shape).Idx → α) (buf : (⟨2, ![64, 1024]⟩ : Shape).Idx → α) :
    (⟨3, ![2048, 64, 1024]⟩ : Shape).Idx → α :=
  fun i => if (i 1).val = 0 then x (ix2 (i 0) (i 2)) else buf (ix2 (i 1) (i 2))

theorem window_apply (x : (⟨2, ![2048, 1024]⟩ : Shape).Idx → α) (buf : (⟨2, ![64, 1024]⟩ : Shape).Idx → α)
    (t : Fin 2048) (l : Fin 64) (d : Fin 1024) :
    window x buf (ix3 t l d) = if l.val = 0 then x (ix2 t d) else buf (ix2 l d) := rfl

/-- A tile of 32 steps, built by broadcasts and one select: `rows` (the 32 steps' input rows, [32, 1024]) is given a
    unit slot axis and repeated along the 64 slots; `buf` ([64, 1024]) is given a unit step axis and repeated along the 32
    steps; an iota along the slot axis compared with 0 picks `rows` in slot 0 and `buf` elsewhere. At step `p` of the
    tile, slot `l`, feature `d` it holds `rows[p, d]` when `l = 0` and `buf[l, d]` otherwise. -/
theorem tile_apply (rows : (⟨2, ![32, 1024]⟩ : Shape).Idx → α) (buf : (⟨2, ![64, 1024]⟩ : Shape).Idx → α)
    (h1 : (⟨2, ![64, 1024]⟩ : Shape).ShapeCasts ⟨3, ![1, 64, 1024]⟩)
    (h2 : (⟨3, ![1, 64, 1024]⟩ : Shape).ShapeCasts ⟨3, ![1, 64, 1024]⟩)
    (h3 : (⟨3, ![1, 64, 1024]⟩ : Shape).Broadcasts ⟨3, ![32, 64, 1024]⟩)
    (h4 : (⟨2, ![32, 1024]⟩ : Shape).ShapeCasts ⟨3, ![32, 1, 1024]⟩)
    (h5 : (⟨3, ![32, 1, 1024]⟩ : Shape).ShapeCasts ⟨3, ![32, 1, 1024]⟩)
    (h6 : (⟨3, ![32, 1, 1024]⟩ : Shape).Broadcasts ⟨3, ![32, 64, 1024]⟩)
    (h7 : (⟨3, ![32, 64, 1024]⟩ : Shape).Iotas .tc 32 [1])
    (p : Fin 32) (l : Fin 64) (d : Fin 1024) :
    select (cmpi .eq (iota .tc ⟨3, ![32, 64, 1024]⟩ 32 [1] h7) (broadcast ⟨3, ![32, 64, 1024]⟩ (0#32 : BitVec 32)))
        (broadcastTo ⟨3, ![32, 64, 1024]⟩ (shapeCast ⟨3, ![32, 1, 1024]⟩ (shapeCast ⟨3, ![32, 1, 1024]⟩ rows h4) h5) h6)
        (broadcastTo ⟨3, ![32, 64, 1024]⟩ (shapeCast ⟨3, ![1, 64, 1024]⟩ (shapeCast ⟨3, ![1, 64, 1024]⟩ buf h1) h2) h3)
        (ix3 p l d)
      = if l.val = 0 then rows (ix2 p d) else buf (ix2 l d) := by
  -- the select, the comparison and the splat of 0 read through at the index
  show Scalar.select (IntOp.cmpi .eq (iota .tc ⟨3, ![32, 64, 1024]⟩ 32 [1] h7 (ix3 p l d)) (0#32 : BitVec 32))
      (broadcastTo ⟨3, ![32, 64, 1024]⟩ (shapeCast ⟨3, ![32, 1, 1024]⟩ (shapeCast ⟨3, ![32, 1, 1024]⟩ rows h4) h5) h6 (ix3 p l d))
      (broadcastTo ⟨3, ![32, 64, 1024]⟩ (shapeCast ⟨3, ![1, 64, 1024]⟩ (shapeCast ⟨3, ![1, 64, 1024]⟩ buf h1) h2) h3 (ix3 p l d))
    = _
  -- the iota along the slot axis is the slot number
  rw [iota_single_apply]
  -- a cast to the same shape changes nothing
  rw [shapeCast_self _ h5, shapeCast_self _ h2]
  -- each broadcast reads its operand at the unit axis' only position
  rw [broadcastTo_apply _ h6 (ix3 p l d) (ix3 p (0 : Fin 1) d) (fun a => by
        match a with
        | ⟨0, _⟩ => rfl
        | ⟨1, _⟩ => rfl
        | ⟨2, _⟩ => rfl),
      broadcastTo_apply _ h3 (ix3 p l d) (ix3 (0 : Fin 1) l d) (fun a => by
        match a with
        | ⟨0, _⟩ => rfl
        | ⟨1, _⟩ => rfl
        | ⟨2, _⟩ => rfl)]
  -- and each cast that adds a unit axis keeps the row-major position
  rw [shapeCast_apply rows h4 (ix3 p (0 : Fin 1) d) (ix2 p d) (by
        rw [Shape.rowMajor_val_two, Shape.rowMajor_val_three]
        show p.val * 1024 + d.val = (p.val * 1 + 0) * 1024 + d.val
        omega),
      shapeCast_apply buf h1 (ix3 (0 : Fin 1) l d) (ix2 l d) (by
        rw [Shape.rowMajor_val_two, Shape.rowMajor_val_three]
        show l.val * 1024 + d.val = (0 * 64 + l.val) * 1024 + d.val
        omega)]
  exact select_coord_zero l.val (by have := l.isLt; omega) _ _

end Cert.SlidingWindow

end
-- ==== Proof.TileValue.lean ====
/-
  What the kernel body stores, read at an index.

  The body loads the whole initial buffer (64 rows) and a block of 32 input rows, and stores ONE value covering its
  whole output tile [32, 64, 1024]: both loads broadcast to the tile's shape and merged by a select on "the slot
  number is 0". By `SlidingWindow.tile_apply` that value at step `p` of the tile, slot `l`, feature `d` is the input
  row's entry `rows[p, d]` when `l = 0` and the buffer's entry `buf[l, d]` otherwise. Nothing is computed on the
  entries, so this holds at every float instance.
-/
import proofs.«160480_j72627896975940_2_alg».proof.Proof.Gen.KernelIdeal.Skeleton
import proofs.«160480_j72627896975940_2_alg».proof.Proof.WindowSpec

noncomputable section

namespace Cert.KernelIdeal.TileValue

open Cert.KernelIdeal Cert.KernelIdeal.Gen
open Idealize.ShloMosaic Idealize.ShloMosaic.ValueIdx Cert.SlidingWindow

variable {F : FTy → Type} [FloatOps F]

/-- The stored tile at (step `p` of the block, slot `l`, feature `d`). -/
theorem stored_apply (buf : Vec F S64x1024 .f32) (rows : Vec F S32x1024 .f32) (p : Fin 32) (l : Fin 64) (d : Fin 1024) :
    k0_pay1 buf rows (ix3 p l d) = if l.val = 0 then rows (ix2 p d) else buf (ix2 l d) := by
  unfold k0_pay1
  exact tile_apply rows buf _ _ _ _ _ _ _ p l d

/-- The same at any index `j` of the tile, by its three coordinates. -/
theorem stored_at (buf : Vec F S64x1024 .f32) (rows : Vec F S32x1024 .f32) (j : S32x64x1024.Idx) :
    k0_pay1 buf rows j = if (j 1).val = 0 then rows (ix2 (j 0) (j 2)) else buf (ix2 (j 1) (j 2)) := by
  obtain ⟨p, l, d, rfl⟩ : ∃ (p : Fin 32) (l : Fin 64) (d : Fin 1024), j = ix3 p l d := ⟨j 0, j 1, j 2, eq_ix3 j⟩
  exact stored_apply buf rows p l d

end Cert.KernelIdeal.TileValue

end
-- ==== Proof.ArrayValue.lean ====
/-
  The kernel's result array is the sliding window's slots.

  The grid has 64 points. Point `t` is handed steps `32 t … 32 t + 31` of the input rows, the whole initial buffer,
  and writes back the output's block of those 32 steps (all 64 slots, all 1024 features). What it writes is the tile of
  TileValue.lean over its two loads, and at step `p` of the block the loaded input row is row `32 t + p` of the
  argument while the loaded buffer is the argument itself, so point `t` writes block `t` of `window x buf`
  (`written_back`). Step `s` of the array lies in the block of point `s / 32`, so the 64 blocks cover the array
  (`covered`), and the array after the run is `window x buf` everywhere (`result_array`, `run`).
-/
import proofs.«160480_j72627896975940_2_alg».proof.Proof.Gen.KernelIdeal.Value
import proofs.«160480_j72627896975940_2_alg».proof.Proof.TileValue

set_option maxRecDepth 16384

noncomputable section

namespace Cert.KernelIdeal.ArrayValue

open Cert.KernelIdeal Cert.KernelIdeal.Gen Cert.KernelIdeal.TileValue
open Idealize.ShloMosaic Idealize.ShloMosaic.TcCoe Idealize.SL.Sem Idealize.ShloMosaic.ValueIdx Cert.SlidingWindow
open Idealize.ShloMosaic.Pipeline (Dat)

variable {F : FTy → Type} [FloatOps F]
variable (m : (ℓ : Loc nD τ sig) → Buf (Elt F) ℓ) (ρ : Dev nD → PrngReg)

theorem origin2 : (![0, 0] : Fin 2 → Nat) = fun _ => 0 := funext fun a => by fin_cases a <;> rfl
theorem origin3 : (![0, 0, 0] : Fin 3 → Nat) = fun _ => 0 := funext fun a => by fin_cases a <;> rfl

/-- Where each window's block sits at grid point `t`, decided over the 64 points: the input rows' block and the
    output's block are both the `t`-th along the step axis and the first along every other axis; the buffer's block is
    the whole buffer. -/
theorem block_positions : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- WHAT POINT `t` WRITES BACK is block `t` of the sliding window's slots over the argument arrays. -/
theorem written_back (c : Dev nD) (t : Fin cfg0.N) :
    (dats m 0 c).flushed 2 t
      = ((cfg0.win 2).blk t).view.read (Elt F) (window (V m c main_arg0) (V m c main_arg1)) := by
  rw [Value.flushed2]
  unfold out0_2
  rw [View.canon_unit_zero origin3]
  simp only [View.ld_unit_zero (S := S64x1024) origin2, View.ld_unit_zero (S := S32x1024) origin2]
  obtain ⟨a0, a1, b0, b1, o0, o1, o2⟩ := block_positions t
  funext j
  show k0_pay1 (iblk m c 1 t) (iblk m c 0 t) j
    = window (V m c main_arg0) (V m c main_arg1) (((cfg0.win 2).blk t).view.emb j)
  refine (stored_at (iblk m c 1 t) (iblk m c 0 t) j).trans ?_
  have hj0 : (j 0).val < 32 := (j 0).isLt
  have hj1 : (j 1).val < 64 := (j 1).isLt
  have hj2 : (j 2).val < 1024 := (j 2).isLt
  -- the slot number of the array index under the tile index is the tile's own
  have hslot : ((((cfg0.win 2).blk t).view.emb j) 1).val = (j 1).val := by
    show win0_2.index t (1 : Fin 3) * 64 + 1 * (j 1).val = (j 1).val
    omega
  -- the loaded input row is the argument's row under it
  have hrow : iblk m c 0 t (ix2 (j 0) (j 2))
      = V m c main_arg0 (ix2 ((((cfg0.win 2).blk t).view.emb j) 0) ((((cfg0.win 2).blk t).view.emb j) 2)) := by
    show V m c main_arg0 (((cfg0.win 0).blk t).view.emb (ix2 (j 0) (j 2))) = _
    refine congrArg (V m c main_arg0) (funext fun a => Fin.ext ?_)
    match a with
    | ⟨0, _⟩ =>
      show win0_0.index t (0 : Fin 2) * 32 + 1 * (j 0).val = win0_2.index t (0 : Fin 3) * 32 + 1 * (j 0).val
      omega
    | ⟨1, _⟩ =>
      show win0_0.index t (1 : Fin 2) * 1024 + 1 * (j 2).val = win0_2.index t (2 : Fin 3) * 1024 + 1 * (j 2).val
      omega
  -- and the loaded buffer is the argument
  have hbuf : iblk m c 1 t (ix2 (j 1) (j 2))
      = V m c main_arg1 (ix2 ((((cfg0.win 2).blk t).view.emb j) 1) ((((cfg0.win 2).blk t).view.emb j) 2)) := by
    show V m c main_arg1 (((cfg0.win 1).blk t).view.emb (ix2 (j 1) (j 2))) = _
    refine congrArg (V m c main_arg1) (funext fun a => Fin.ext ?_)
    match a with
    | ⟨0, _⟩ =>
      show win0_1.index t (0 : Fin 2) * 64 + 1 * (j 1).val = win0_2.index t (1 : Fin 3) * 64 + 1 * (j 1).val
      omega
    | ⟨1, _⟩ =>
      show win0_1.index t (1 : Fin 2) * 1024 + 1 * (j 2).val = win0_2.index t (2 : Fin 3) * 1024 + 1 * (j 2).val
      omega
  show _ = if ((((cfg0.win 2).blk t).view.emb j) 1).val = 0
      then V m c main_arg0 (ix2 ((((cfg0.win 2).blk t).view.emb j) 0) ((((cfg0.win 2).blk t).view.emb j) 2))
      else V m c main_arg1 (ix2 ((((cfg0.win 2).blk t).view.emb j) 1) ((((cfg0.win 2).blk t).view.emb j) 2))
  exact if_congr (by rw [hslot]) hrow hbuf

/-- An index of the array is in point `t`'s block iff each coordinate is in the block's range on its axis. -/
theorem mem_block (t : Fin cfg0.N) (i : S2048x64x1024.Idx) :
    i ∈ ((cfg0.win 2).blk t).view.set ↔ ∀ a : Fin 3, win0_2.index t a * S32x64x1024.size a ≤ (i a).val
      ∧ (i a).val < win0_2.index t a * S32x64x1024.size a + S32x64x1024.size a := by
  show i ∈ ((View.whole main_v0).slice (win0_2.rect t)).set ↔ _
  rw [View.set_slice_whole, Rect.mem_set_unit]
  exact Iff.rfl

/-- Every index of the array is in some point's block: step `s` is in the block of point `s / 32`. -/
theorem covered (i : S2048x64x1024.Idx) :
    ∃ t : Fin cfg0.N, (cfg0.win 2).flush t = true ∧ i ∈ ((cfg0.win 2).blk t).view.set := by
  have hN : cfg0.N = 64 := N_0
  have h0 : (i 0).val < 2048 := (i 0).isLt
  have h1 : (i 1).val < 64 := (i 1).isLt
  have h2 : (i 2).val < 1024 := (i 2).isLt
  have hlt : (i 0).val / 32 < cfg0.N := by rw [hN]; omega
  obtain ⟨_, _, _, _, o0, o1, o2⟩ := block_positions ⟨(i 0).val / 32, hlt⟩
  have o0' : win0_2.index ⟨(i 0).val / 32, hlt⟩ (0 : Fin 3) = (i 0).val / 32 := o0
  refine ⟨⟨(i 0).val / 32, hlt⟩, flush0_2 _, ?_⟩
  rw [mem_block]
  intro a
  match a with
  | ⟨0, _⟩ =>
    show win0_2.index ⟨(i 0).val / 32, hlt⟩ (0 : Fin 3) * 32 ≤ (i 0).val
      ∧ (i 0).val < win0_2.index ⟨(i 0).val / 32, hlt⟩ (0 : Fin 3) * 32 + 32
    omega
  | ⟨1, _⟩ =>
    show win0_2.index ⟨(i 0).val / 32, hlt⟩ (1 : Fin 3) * 64 ≤ (i 1).val
      ∧ (i 1).val < win0_2.index ⟨(i 0).val / 32, hlt⟩ (1 : Fin 3) * 64 + 64
    omega
  | ⟨2, _⟩ =>
    show win0_2.index ⟨(i 0).val / 32, hlt⟩ (2 : Fin 3) * 1024 ≤ (i 2).val
      ∧ (i 2).val < win0_2.index ⟨(i 0).val / 32, hlt⟩ (2 : Fin 3) * 1024 + 1024
    omega

/-- THE RESULT ARRAY after the run: the sliding window's slots over the two argument arrays. -/
theorem result_array (c : Dev nD) :
    (dats m 0 c).arrAt 2 cfg0.N
      = window (m ((c : Thread nD τ).loc main_arg0)) (m ((c : Thread nD τ).loc main_arg1)) :=
  (dats m 0 c).arrAt_eq_of_cover 2 (window (V m c main_arg0) (V m c main_arg1))
    (fun t _ => written_back m c t) covered

/-- The kernel's run: every weakly fair execution terminates with the result array at `window` of the arguments,
    the arguments unchanged. -/
theorem run : θ_run defs (onTc (τ := τ) (main (F := F))) ⟨m, fun _ => 0, ρ⟩ fun r => ∀ c : Dev nD,
      r.2.mem ((c : Thread nD τ).loc main_v0)
        = window (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_array m c), (h c).2⟩) (Value.run_blocks m ρ)

end Cert.KernelIdeal.ArrayValue

end
-- ==== Proof.RefWindow.lean ====
/-
  The reference computes the sliding window's slots.

  The reference lays the result out as two pieces joined along the slot axis: the input rows with a unit slot axis
  ([2048, 1, 1024]) in front, and behind them rows 1 … 63 of the initial buffer repeated at every step
  ([2048, 63, 1024]). Read at step `t`, slot `l`, feature `d`:
  * `l = 0` falls in the first piece, at its only slot, which holds `x[t, d]`;
  * `l ≥ 1` falls in the second piece at position `l − 1`, which holds row `(l − 1) + 1 = l` of the buffer
    (the slice dropped row 0), whatever the step.
  That is `window x buf` (WindowSpec.lean). No arithmetic is done on the entries, so this holds at every float instance.
-/
import proofs.«160480_j72627896975940_2_alg».proof.Proof.Gen.ReferenceIdeal.Read
import proofs.«160480_j72627896975940_2_alg».proof.Proof.WindowSpec

noncomputable section

namespace Cert.ReferenceIdeal.RefValue

open Cert.ReferenceIdeal Cert.ReferenceIdeal.Gen Cert.ReferenceIdeal.Read
open Idealize.ShloMosaic Idealize.ShloMosaic.ValueIdx Cert.SlidingWindow

variable {F : FTy → Type} [FloatOps F]

/-- The reference's result, as a function of its two arguments, is the sliding window's slots. -/
theorem result_is_window (x0 : (⟨S2048x1024, .f32⟩ : BufTy).Contents (Elt F)) (x1 : (⟨S64x1024, .f32⟩ : BufTy).Contents (Elt F)) :
    val_main_v5 (F := F) x0 x1 = window x0 x1 := by
  funext i
  obtain ⟨t, l, d, rfl⟩ : ∃ (t : Fin 2048) (l : Fin 64) (d : Fin 1024), i = ix3 t l d := ⟨i 0, i 1, i 2, eq_ix3 i⟩
  rw [window_apply]
  unfold val_main_v5
  by_cases hl : l.val = 0
  · -- slot 0: the first piece, at its one slot
    rw [if_pos hl]
    refine (concatenate_pair_apply_left (t := S2048x64x1024) (s₁ := S2048x1x1024) (s₂ := S2048x63x1024) (1 : Fin 3) _ _
      concatenates_S2048x1x1024_S2048x63x1024_S2048x64x1024_d1
      (ix3 t l d) rfl (ix3 t (0 : Fin 1) d) (fun b => by
        match b with
        | ⟨0, _⟩ => rfl
        | ⟨1, _⟩ => exact hl.symm
        | ⟨2, _⟩ => rfl)).trans ?_
    rw [val_main_v4_apply]
    exact congrArg x0 (funext fun a => by
      match a with
      | ⟨0, _⟩ => rfl
      | ⟨1, _⟩ => rfl)
  · -- a later slot: the second piece, one position earlier, which is buffer row `l` again
    rw [if_neg hl]
    refine (concatenate_pair_apply_right (t := S2048x64x1024) (s₁ := S2048x1x1024) (s₂ := S2048x63x1024) (1 : Fin 3) _ _
      concatenates_S2048x1x1024_S2048x63x1024_S2048x64x1024_d1
      (ix3 t l d) rfl rfl (ix3 t (⟨l.val - 1, by have := l.isLt; omega⟩ : Fin 63) d) (fun b hb => by
        match b with
        | ⟨0, _⟩ => rfl
        | ⟨1, _⟩ => exact absurd rfl hb
        | ⟨2, _⟩ => rfl) (by show (l.val - 1) + 1 = l.val; omega)).trans ?_
    rw [val_main_v3_apply, val_main_v1_apply, val_main_v0_apply]
    exact congrArg x1 (funext fun a => by
      match a with
      | ⟨0, _⟩ => exact Fin.ext (by show 1 + (l.val - 1) = l.val; omega)
      | ⟨1, _⟩ => rfl)

end Cert.ReferenceIdeal.RefValue

end
-- ==== Proof.lean ====
/-
  The certificate of the sliding-window memory kernel against its reference.

  Both programs produce, from the input rows `x` [2048, 1024] and the initial buffer `buf` [64, 1024], the array
  [2048, 64, 1024] whose entry at step `t`, slot `l`, feature `d` is `x[t, d]` when `l = 0` and `buf[l, d]` otherwise
  (`SlidingWindow.window`, Proof/WindowSpec.lean): slot 0 of every step is overwritten by the step's input, the other
  slots never change. The kernel builds each block of 32 steps by broadcasting both operands to the block's shape and
  selecting on "the slot number is 0" (Proof/TileValue.lean), and its 64 blocks tile the array (Proof/ArrayValue.lean);
  the reference joins the input rows, given a unit slot axis, with rows 1 … 63 of the buffer repeated at every step
  (Proof/RefWindow.lean). Entries are only moved, never computed on, so the two results are equal entry by entry for
  all extended-real inputs, and the finiteness of the inputs is not used.

  The three frames are the generated frame certificates (the reference's is its generated run with the result
  dropped); the idealization rewrote no operation, so `preserves` states nothing.
-/
import proofs.«160480_j72627896975940_2_alg».proof.Defs
import proofs.«160480_j72627896975940_2_alg».proof.Proof.Gen.Kernel
import proofs.«160480_j72627896975940_2_alg».proof.Proof.Gen.Kernel.Skeleton
import proofs.«160480_j72627896975940_2_alg».proof.Proof.Gen.Kernel.Launch
import proofs.«160480_j72627896975940_2_alg».proof.Proof.Gen.Kernel.Points
import proofs.«160480_j72627896975940_2_alg».proof.Proof.Gen.Kernel.Frame
import proofs.«160480_j72627896975940_2_alg».proof.Proof.Gen.KernelIdeal
import proofs.«160480_j72627896975940_2_alg».proof.Proof.Gen.KernelIdeal.Skeleton
import proofs.«160480_j72627896975940_2_alg».proof.Proof.Gen.KernelIdeal.Launch
import proofs.«160480_j72627896975940_2_alg».proof.Proof.Gen.KernelIdeal.Points
import proofs.«160480_j72627896975940_2_alg».proof.Proof.Gen.KernelIdeal.Frame
import proofs.«160480_j72627896975940_2_alg».proof.Proof.Gen.ReferenceIdeal
import proofs.«160480_j72627896975940_2_alg».proof.Proof.Gen.KernelIdeal.Value
import proofs.«160480_j72627896975940_2_alg».proof.Proof.Gen.ReferenceIdeal.Run
import proofs.«160480_j72627896975940_2_alg».proof.Proof.Gen.ReferenceIdeal.Read
import proofs.«160480_j72627896975940_2_alg».proof.Proof.Gen.Pre_finite_inputs
import proofs.«160480_j72627896975940_2_alg».proof.Proof.ArrayValue
import proofs.«160480_j72627896975940_2_alg».proof.Proof.RefWindow
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's result array ends at `window` of its arguments and so does the reference's, of arguments that agree. -/
theorem algebraic : Cert.algebraic_KernelIdeal_ReferenceIdeal := by
  intro m ρ m' ρ' _ hagree
  refine ⟨fun c => Cert.SlidingWindow.window
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_is_window,
    (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
